-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x8192 : Shape := ⟨2, ![4096, 8192]⟩
abbrev S4096 : Shape := ⟨1, ![4096]⟩
abbrev S256x8192 : Shape := ⟨2, ![256, 8192]⟩
abbrev S256 : Shape := ⟨1, ![256]⟩
abbrev S256x1 : Shape := ⟨2, ![256, 1]⟩
abbrev S256x2048 : Shape := ⟨2, ![256, 2048]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S256, .f32⟩
  | .local _ .vmem, ⟨5, _⟩ => ⟨S256, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c2048_i32 : BitVec 32 := 2048#32
  let v22 : BitVec 32 := Scalar.muli arg4 c2048_i32
  v22
def k0_off1 (k0_t1 : Fin k0_t1_loop.trips) : Fin 2 → Nat :=
  let c0_5 : Index := 0#32
  let c0_i32 : BitVec 32 := 0#32
  let c1_i32 : BitVec 32 := 1#32
  let arg4 : BitVec 32 := Scf.iv c0_i32 c1_i32 k0_t1
  let c2048_i32 : BitVec 32 := 2048#32
  let v22 : BitVec 32 := Scalar.muli arg4 c2048_i32
  let v23 : BitVec 32 := v22
  let v24 : Index := Scalar.indexCast v23
  ![0, v24.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S256x2048 : 0 < S256x2048.numel
  reduces_S256x2048_S256 : S256x2048.Reduces [1] S256
  shapeCasts_S256_S256x1 : S256.ShapeCasts S256x1
  shapeCasts_S256x1_S256 : S256x1.ShapeCasts S256
  inb_S256_S256_0 : ∀ a, (![0] : Fin 1 → Nat) a + S256.size a ≤ S256.size a
  h_S256 : 0 < S256.numel
  reducesTo_S4096_S_d0 : S4096.ReducesTo [0] S_
  h_S_ : 0 < S_.numel
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S256x2048.size a ≤ S256x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .f32 = 32 ∨ (Rect.block (s := S4096x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S4096.size a
  hwx0_2 : ∀ i : grid0.Coords, EltTy.bits .f32 = 32 ∨ (Rect.block (s := S4096) S256.size (cc0_transform_2 i) (hinb0_2 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩
abbrev S4096 : Shape := ⟨1, ![4096]⟩

abbrev nBuf : Space → Nat
  | .hbm => 40
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096x8192, .f32⟩
  | .hbm, ⟨7, _⟩ => ⟨S_, .f32⟩
  | .hbm, ⟨8, _⟩ => ⟨S4096, .f32⟩
  | .hbm, ⟨9, _⟩ => ⟨S4096x8192, .f32⟩
  | .hbm, ⟨10, _⟩ => ⟨S_, .f32⟩
  | .hbm, ⟨11, _⟩ => ⟨S4096, .f32⟩
  | .hbm, ⟨12, _⟩ => ⟨S4096x8192, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  reducesTo_S4096x8192_S4096_d1 : S4096x8192.ReducesTo [1] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.KernelTrips.lean ====
/-
  The kernel body as four trips over five carried column vectors.

  At one grid point the body holds two blocks of 256 rows by 8192 columns, `x` and `y`.  It walks the columns in
  four chunks of 2048; trip `k` loads columns [2048 k, 2048 k + 2048) of both blocks and adds, row by row, the
  chunk's sums of x, y, x·y, x·x and y·y to five carried [256, 1] columns that start at zero.  After the last
  trip one expression of the five columns is stored over the whole output block of 256 entries.

  This module states that, for any float instance: what the body leaves in the output block is that final
  expression of the state reached by composing the four trips, each trip being the five chunk updates.
-/
import proofs.«153674_j35304631173303_2_alg».proof.Proof.Gen.KernelIdeal.Frame
import Idealize.ShloMosaic.Lib.Pipeline.Value

set_option maxRecDepth 16384

noncomputable section

namespace Cert.KernelIdeal.Trips

open Idealize.ShloMosaic Idealize.ShloMosaic.TcCoe Idealize.SL.Sem
open Cert.KernelIdeal Cert.KernelIdeal.Gen

variable {F : FTy → Type} [FloatOps F]

/-- The five carried columns: the running sums of x, y, x·y, x·x, y·y. -/
abbrev Acc (F : FTy → Type) [FloatOps F] : Type :=
  FVec F S256x1 .f32 × FVec F S256x1 .f32 × FVec F S256x1 .f32 × FVec F S256x1 .f32 × FVec F S256x1 .f32

/-- The loop runs four times. -/
theorem trips_eq : k0_t1_loop.trips = 4 := by decide

/-- Trip `k`'s chunk of a block: its columns from `2048 k` on, 2048 of them. -/
def chunk (X : Vec F S256x8192 .f32) (k : Fin k0_t1_loop.trips) : Vec F S256x2048 .f32 :=
  View.ld X (Rect.unit (s := S256x8192) (k0_off1 k) S256x2048.size (k0_off1_inb k))

/-- One trip: each carried column gains its chunk's row sums. -/
def step (X Y : Vec F S256x8192 .f32) (k : Fin k0_t1_loop.trips) (acc : Acc F) : Acc F :=
  (k0_pay2 acc.1 (chunk X k), k0_pay3 acc.2.1 (chunk Y k), k0_pay4 acc.2.2.1 (chunk X k) (chunk Y k),
    k0_pay5 acc.2.2.2.1 (chunk X k), k0_pay6 acc.2.2.2.2 (chunk Y k))

/-- The carried columns at loop entry: all zero. -/
def start : Acc F := (k0_pay1, k0_pay1, k0_pay1, k0_pay1, k0_pay1)

/-- The four trips, numbered 0 to 3. -/
def trip (kk : Fin 4) : Fin k0_t1_loop.trips := ⟨kk.val, by rw [trips_eq]; exact kk.isLt⟩

/-- The carried columns after the four trips. -/
def sums (X Y : Vec F S256x8192 .f32) : Acc F :=
  step X Y (trip 3) (step X Y (trip 2) (step X Y (trip 1) (step X Y (trip 0) start)))

/-- The stored block as a function of the two input blocks. -/
def block (X Y : Vec F S256x8192 .f32) : Vec F S256 .f32 :=
  k0_pay7 (sums X Y).1 (sums X Y).2.1 (sums X Y).2.2.1 (sums X Y).2.2.2.1 (sums X Y).2.2.2.2

section run

variable (𝒱 : Variants) (c : Dev nD) (bd : Option 𝒱.V) (i : grid0.Coords)
  (arg1 : Memref sig .tc .vmem S256x8192 .f32) (harg1 : arg1.IsWhole)
  (arg2 : Memref sig .tc .vmem S256x8192 .f32) (harg2 : arg2.IsWhole)
  (arg3 : Memref sig .tc .vmem S256 .f32) (harg3 : arg3.IsWhole)

/-- One trip of the loop, on staging buffers holding `X` and `Y`, takes the carried columns to `step` of them. -/
theorem trip_eq (X Y : Vec F S256x8192 .f32) (k : Fin k0_t1_loop.trips) (acc : Acc F) :
    tripR_k0_t1 (F := F) 𝒱 c bd i arg1 harg1 arg2 harg2 arg3 harg3 (harg1.unread X) (harg2.unread Y) k acc
      = step X Y k acc := by
  unfold tripR_k0_t1 trip_k0_t1
  dsimp only
  simp only [View.readAt_eq_ld, harg1.read_unread, harg2.read_unread]
  rfl

/-- The loop's carried columns after its four trips are `sums`. -/
theorem st_eq (X Y : Vec F S256x8192 .f32) :
    st_k0_t1 (F := F) 𝒱 c bd i arg1 harg1 arg2 harg2 arg3 harg3 (harg1.unread X) (harg2.unread Y)
        (k0_pay1, k0_pay1, k0_pay1, k0_pay1, k0_pay1) k0_t1_loop.trips
      = sums X Y := by
  have h4 : k0_t1_loop.trips = (trip 3).val + 1 := trips_eq
  rw [h4, st_k0_t1_succ, trip_eq]
  rw [show (trip 3).val = (trip 2).val + 1 from rfl, st_k0_t1_succ, trip_eq]
  rw [show (trip 2).val = (trip 1).val + 1 from rfl, st_k0_t1_succ, trip_eq]
  rw [show (trip 1).val = (trip 0).val + 1 from rfl, st_k0_t1_succ, trip_eq]
  rfl

/-- What the body leaves in the output's staging buffer is `block` of the two input blocks. -/
theorem out_eq (X Y : Vec F S256x8192 .f32) :
    out0_A_2 c i arg1 harg1 arg2 harg2 arg3 harg3 X Y = block X Y := by
  unfold out0_A_2
  rw [View.read_writes_eq_canon _ _ _ (cover0_A_2 c i arg1 harg1 arg2 harg2 arg3 harg3 X Y)]
  unfold kernelRun0_A
  dsimp only
  have hz : (![0] : Fin S256.rank → ℕ) = fun _ => 0 := by funext a; fin_cases a; rfl
  rw [View.canon_unit_zero hz]
  unfold block
  rw [← st_eq Variants.none c none i arg1 harg1 arg2 harg2 arg3 harg3 X Y]

end run

end Cert.KernelIdeal.Trips

end
-- ==== Proof.PearsonSpec.lean ====
/-
  The function both programs compute: the mean over 4096 rows of one minus the rows' correlation coefficient.

  For a row with entries x_k, y_k (k below n = 8192) put
      sx = Σ x_k,  sy = Σ y_k,  sxy = Σ x_k y_k,  sxx = Σ x_k²,  syy = Σ y_k².
  The row's loss is
      1 − (n·sxy − sx·sy) / sqrt ((n·sxx − sx²) · (n·syy − sy²)),
  and the result is (0 + the sum of the 4096 losses) / 4096.

  Everything is read on the extended reals with the operations of the ideal float instance (its subtraction,
  its quotient `Ideal.div`, its square root `Ideal.sqrt`, which fix the conventions at infinities and at a zero
  or negative radicand).  The three constants are kept as the binary words the programs print; both programs
  print the same words, so their values are never needed.
-/
import Idealize.ShloMosaic.PureOps.Ideal
import Idealize.ShloMosaic.Lib.ValueIdx

noncomputable section

open scoped BigOperators

namespace Pearson

open Idealize.ShloMosaic Idealize.ShloMosaic.ValueIdx

/-- The two inputs' shape, the per-row shape, and the result's. -/
abbrev SIn : Shape := ⟨2, ![4096, 8192]⟩
abbrev SRows : Shape := ⟨1, ![4096]⟩
abbrev SOne : Shape := ⟨0, ![]⟩

/-- The number of columns, 8192, as both programs print it. -/
abbrev nCols : EReal := Ideal.ofBits .f32 0x46000000#32

/-- A row's loss from its five sums. -/
def loss (sx sy sxy sxx syy : EReal) : EReal :=
  Ideal.ofBits .f32 0x3F800000#32
    - Ideal.div (nCols * sxy - sx * sy) (Ideal.sqrt ((nCols * sxx - sx * sx) * (nCols * syy - sy * sy)))

/-- Row `r`'s loss from the two arrays. -/
def rowLoss (X Y : SIn.Idx → EReal) (r : Fin 4096) : EReal :=
  loss (∑ k : Fin 8192, X (ix2 r k)) (∑ k : Fin 8192, Y (ix2 r k)) (∑ k : Fin 8192, X (ix2 r k) * Y (ix2 r k))
    (∑ k : Fin 8192, X (ix2 r k) * X (ix2 r k)) (∑ k : Fin 8192, Y (ix2 r k) * Y (ix2 r k))

/-- The 4096 losses as an array. -/
def losses (X Y : SIn.Idx → EReal) : SRows.Idx → EReal := fun j => rowLoss X Y (j 0)

/-- A row's loss from any two functions of the column that are row `r` of the two arrays. -/
theorem rowLoss_of_rows (X Y : SIn.Idx → EReal) (r : Fin 4096) (x y : Fin 8192 → EReal)
    (hx : ∀ k, x k = X (ix2 r k)) (hy : ∀ k, y k = Y (ix2 r k)) :
    loss (∑ k : Fin 8192, x k) (∑ k : Fin 8192, y k) (∑ k : Fin 8192, x k * y k) (∑ k : Fin 8192, x k * x k)
      (∑ k : Fin 8192, y k * y k) = rowLoss X Y r := by
  obtain rfl : x = fun k => X (ix2 r k) := funext hx
  obtain rfl : y = fun k => Y (ix2 r k) := funext hy
  rfl

/-- The mean of 4096 values as both programs end: the host's sum of the array from zero, divided by 4096.  It is
    applied to one and the same array on both sides and is never opened. -/
def mean (v : FVec Ideal SRows .f32) : FVec Ideal SOne .f32 :=
  Host.divf (F := Ideal)
    (Host.reduceAdd (F := Ideal) v (constant (F := Ideal) SOne .f32 0x00000000#32)
      (by decide : SRows.ReducesTo [0] SOne) (by decide : 0 < SOne.numel))
    (constant (F := Ideal) SOne .f32 0x45800000#32)

end Pearson

end
-- ==== Proof.LibChunkSum.lean ====
/-
  A sum over a range of length `c * n`, taken chunk by chunk.

  In any additive commutative monoid the sum of `f` over the `N = c * n` indices is the sum over the `c` chunks of
  the sum of `f` over the `n` positions of the chunk, position `j` of chunk `k` being the index `k * n + j`.  Only
  associativity and commutativity of `+` are used, so the law holds on the extended reals with no finiteness
  hypothesis: infinite terms may be regrouped like any others.
-/
import Mathlib.Algebra.BigOperators.Fin
import Mathlib.Logic.Equiv.Fin.Basic

namespace ChunkSum

open Finset

/-- Position `j` of chunk `k`, as an index below `N = c * n`. -/
def pos {c n N : Nat} (h : c * n = N) (k : Fin c) (j : Fin n) : Fin N :=
  ⟨k.val * n + j.val, by
    have hk := k.isLt
    have hj := j.isLt
    calc k.val * n + j.val < k.val * n + n := by omega
      _ = (k.val + 1) * n := (Nat.succ_mul k.val n).symm
      _ ≤ c * n := Nat.mul_le_mul_right n (Nat.succ_le_of_lt hk)
      _ = N := h⟩

@[simp] theorem pos_val {c n N : Nat} (h : c * n = N) (k : Fin c) (j : Fin n) :
    (pos h k j).val = k.val * n + j.val := rfl

/-- A sum over `N = c * n` indices is the sum over the chunks of the chunks' sums. -/
theorem sum_chunks {M : Type*} [AddCommMonoid M] {c n N : Nat} (h : c * n = N) (f : Fin N → M) :
    ∑ i : Fin N, f i = ∑ k : Fin c, ∑ j : Fin n, f (pos h k j) := by
  subst h
  rw [← Equiv.sum_comp finProdFinEquiv f, Fintype.sum_prod_type]
  refine Finset.sum_congr rfl fun k _ => Finset.sum_congr rfl fun j _ => congrArg f (Fin.ext ?_)
  show j.val + n * k.val = k.val * n + j.val
  rw [Nat.mul_comm, Nat.add_comm]

/-- Four chunks, added one after the other from zero, as a kernel's loop accumulates them. -/
theorem sum_four_chunks {M : Type*} [AddCommMonoid M] {n N : Nat} (h : 4 * n = N) (f : Fin N → M) :
    (((0 + ∑ j : Fin n, f (pos h 0 j)) + ∑ j : Fin n, f (pos h 1 j)) + ∑ j : Fin n, f (pos h 2 j))
        + ∑ j : Fin n, f (pos h 3 j)
      = ∑ i : Fin N, f i := by
  rw [sum_chunks h f, Fin.sum_univ_four, zero_add]

end ChunkSum
-- ==== Proof.LibCovered.lean ====
/-
  Two general facts about reading a staging buffer back, stated over an abstract view and value type.

  A body that keeps an accumulator in a scratch buffer stores the WHOLE buffer again and again, and loads the whole
  buffer between the stores. What such a load reads is what the latest store wrote, whatever the earlier stores
  were: the latest store's rectangle is the whole buffer at zero offsets, so it covers every index the load asks for.
  And a load of a PART of a buffer — a unit-stride rectangle at some offsets — reads the contents at offset + index.
-/
import Idealize.ShloMosaic.Lib.Pipeline.Value

noncomputable section

namespace Idealize.ShloMosaic.View

variable {Val : EltTy → Type} {S : Shape} {e : EltTy}

/-- A load of the whole buffer (the unit rectangle of the buffer's own sizes at zero offsets, however the zeros
    are spelt) after a list of stores whose LATEST is a store of the whole buffer reads that store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

/-- A load through a unit-stride rectangle reads the contents at offset + index, coordinate by coordinate: the
    caller names the index `k` read and owes one equation per axis. -/
theorem ld_unit_apply {off size : Fin S.rank → Nat} (inb : ∀ a, off a + size a ≤ S.size a) (X : S.Idx → Val e)
    (x : (Rect.unit off size inb).shape.Idx) (k : S.Idx) (hk : ∀ a, (k a).val = off a + (x a).val) :
    View.ld X (Rect.unit off size inb) x = X k := by
  show X ((Rect.unit off size inb).idx x) = X k
  exact congrArg X (funext fun a => Fin.ext (by
    show off a + 1 * (x a).val = (k a).val
    rw [hk a, Nat.one_mul]))

end Idealize.ShloMosaic.View

end
-- ==== Proof.LibRowReduce.lean ====
/-
  Reductions along a row, and the two "keep the reduced axis" layout steps, read at an index at the ideal instance
  (floats are extended reals, every operation exact), free of any program.

  For a `[m, n]` array reduced over its second axis to `[m]`:
    * a kernel's lane sum at row `p` is the sum over the `n` columns of that row, a lane maximum the fold of `max` from
      the accumulator's value over them;
    * a host reduce with a maximum body at row `p` is the same fold from its initial value.
  A reduced vector `[a]` is put back beside the array by a cast to a column `[a, 1]` and a broadcast of that column to
  `[a, b]`; entry `(p, c)` of the result is entry `p` of the vector.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.LibRowReduce

open Idealize.ShloMosaic Idealize.ShloMosaic.ValueIdx

variable {m n : Nat}

/-- The reduced index `p` with column `k` put back is `(p, k)`. -/
theorem lift_row (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A lane sum over a row. -/
theorem rowSum_apply (src : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (p : Fin m) :
    multiReduction .add [1] ⟨1, ![m]⟩ src acc h hφ hacc (ix1 p) = ∑ k : Fin n, src (ix2 p k) := by
  rw [Ideal.multiReduction_add_single]
  exact Finset.sum_congr rfl fun k _ => congrArg src (lift_row h p k)

/-- A lane maximum over a row: the fold of `max` from the accumulator's value. -/
theorem rowMax_apply (src : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (p : Fin m) :
    multiReduction .maximumf [1] ⟨1, ![m]⟩ src acc h hφ hacc (ix1 p)
      = (Finset.univ : Finset (Fin n)).fold max (Ideal.ofBits .f32 acc) (fun k => src (ix2 p k)) := by
  rw [Ideal.multiReduction_maximumf_single]
  have hf : (src ∘ h.lift (ix1 p)) = fun k : Fin n => src (ix2 p k) := funext fun k => congrArg src (lift_row h p k)
  exact congrArg (fun f => Finset.fold max (Ideal.ofBits .f32 acc) f (Finset.univ : Finset (Fin n))) hf

/-- The host's reduce with a maximum body over a row: the fold of `max` from the initial value. -/
theorem hostRowMax_apply (x : FVec Ideal ⟨2, ![m, n]⟩ .f32) (init : (⟨0, ![]⟩ : Shape).Idx → EReal)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (p : Fin m) :
    Host.reduce (FloatOps.maximumf (F := Ideal) (φ := .f32)) x init h' hu (ix1 p)
      = (Finset.univ : Finset (Fin n)).fold max (init (Shape.Idx.first hu)) (fun k => x (ix2 p k)) := by
  rw [Host.reduce_eq_fold_single FloatOps.maximumf x _ h' h hu]
  have hf : (x ∘ h.lift (ix1 p)) = fun k : Fin n => x (ix2 p k) := funext fun k => congrArg x (lift_row h p k)
  exact congrArg (fun f => Finset.fold max (init (Shape.Idx.first hu)) f (Finset.univ : Finset (Fin n))) hf

/-- A fold of `max` from `a` is at least `a`, so taking the maximum with `a` once more changes nothing. -/
theorem max_fold_max {ι : Type*} (s : Finset ι) (a : EReal) (f : ι → EReal) :
    max a (s.fold max a f) = s.fold max a f :=
  max_eq_right ((Finset.le_fold_max a).2 (Or.inl le_rfl))

variable {α : Type} {a b : Nat}

/-- An `[a]` array cast to the column `[a, 1]` reads, at `(p, u)`, the operand at `p`, whatever the unit coordinate. -/
theorem shapeCast_a_a1_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibRowReduce

end
-- ==== Proof.KernelRow.lean ====
/-
  One row of the kernel's block, at the ideal instance.

  Trip `k` reads columns [2048 k, 2048 k + 2048) of the two input blocks, so entry (p, j) of its chunk is entry
  (p, 2048 k + j) of the block.  A carried column gains, at row p, the sum of the chunk's row p.  After the four
  trips row p of each carried column is therefore
      (((0 + chunk 0's sum) + chunk 1's sum) + chunk 2's sum) + chunk 3's sum,
  which is the sum over all 8192 columns of row p: the chunks partition the columns, and regrouping a finite
  sum uses only associativity and commutativity of +, which hold on all of the extended reals.  The stored
  entry p is then the row's loss of those five sums.
-/
import proofs.«153674_j35304631173303_2_alg».proof.Proof.KernelTrips
import proofs.«153674_j35304631173303_2_alg».proof.Proof.PearsonSpec
import proofs.«153674_j35304631173303_2_alg».proof.Proof.LibChunkSum
import proofs.«153674_j35304631173303_2_alg».proof.Proof.LibCovered
import proofs.«153674_j35304631173303_2_alg».proof.Proof.LibRowReduce
import Idealize.ShloMosaic.PureOps.Ideal.Laws

set_option maxRecDepth 16384

noncomputable section

open scoped BigOperators

namespace Cert.KernelIdeal.Row

open Idealize.ShloMosaic Idealize.ShloMosaic.ValueIdx
open Cert.KernelIdeal Cert.KernelIdeal.Gen Cert.KernelIdeal.Trips

/-- Four chunks of 2048 columns make the 8192 columns. -/
theorem hcols : 4 * 2048 = 8192 := by norm_num

/-- Entry (p, j) of trip `kk`'s chunk is entry (p, 2048 kk + j) of the block. -/
theorem chunk_apply (X : Vec Ideal S256x8192 .f32) (kk : Fin 4) (p : Fin 256) (j : Fin 2048) :
    chunk X (trip kk) (ix2 p j) = X (ix2 p (ChunkSum.pos hcols kk j)) := by
  have e0 : k0_off1 (trip kk) 0 = 0 := by rw [k0_off1_eq (trip kk)]; rfl
  have e1 : k0_off1 (trip kk) 1 = 2048 * (trip kk).val := by rw [k0_off1_eq (trip kk)]; rfl
  have ek : (trip kk).val = kk.val := rfl
  unfold chunk
  refine View.ld_unit_apply (k0_off1_inb (trip kk)) X (ix2 p j) (ix2 p (ChunkSum.pos hcols kk j)) (fun a => ?_)
  match a with
  | ⟨0, _⟩ => show p.val = k0_off1 (trip kk) 0 + p.val; omega
  | ⟨1, _⟩ => show kk.val * 2048 + j.val = k0_off1 (trip kk) 1 + j.val; omega

/-- A [256, 1] column plus the row sums of a [256, 2048] array, read at row p. -/
theorem colAdd_apply (a : FVec Ideal S256x1 .f32) (v : FVec Ideal S256x2048 .f32) (p : Fin 256) (u : Fin 1) :
    addf a (shapeCast S256x1 (multiReduction .add [1] S256 v 0x00000000#32 reduces_S256x2048_S256 (.inl rfl) rfl)
      shapeCasts_S256_S256x1) (ix2 p u) = a (ix2 p u) + ∑ j : Fin 2048, v (ix2 p j) := by
  refine congrArg (a (ix2 p u) + ·) ?_
  exact (Cert.LibRowReduce.shapeCast_a_a1_apply _ shapeCasts_S256_S256x1 p u).trans
    (Cert.LibRowReduce.rowSum_apply v _ reduces_S256x2048_S256 (.inl rfl) rfl p)

/-- The carried columns start at zero. -/
theorem start_apply (p : Fin 256) (u : Fin 1) : (k0_pay1 (F := Ideal)) (ix2 p u) = 0 :=
  Ideal.ofBits_zero_f32

section trip

variable (a : FVec Ideal S256x1 .f32) (V W : Vec Ideal S256x8192 .f32) (kk : Fin 4) (p : Fin 256) (u : Fin 1)

/-- A carried column after trip `kk`, at row p: what it was plus the chunk's row sum of the block's entries. -/
theorem gain_apply :
    addf a (shapeCast S256x1 (multiReduction .add [1] S256 (chunk V (trip kk)) 0x00000000#32 reduces_S256x2048_S256 (.inl rfl) rfl)
      shapeCasts_S256_S256x1) (ix2 p u) = a (ix2 p u) + ∑ j : Fin 2048, V (ix2 p (ChunkSum.pos hcols kk j)) :=
  (colAdd_apply a (chunk V (trip kk)) p u).trans
    (congrArg (a (ix2 p u) + ·) (Finset.sum_congr rfl fun j _ => chunk_apply V kk p j))

/-- The same for the row sum of a product of two chunks. -/
theorem gainMul_apply :
    addf a (shapeCast S256x1 (multiReduction .add [1] S256 (mulf (chunk V (trip kk)) (chunk W (trip kk))) 0x00000000#32
        reduces_S256x2048_S256 (.inl rfl) rfl) shapeCasts_S256_S256x1) (ix2 p u)
      = a (ix2 p u) + ∑ j : Fin 2048, V (ix2 p (ChunkSum.pos hcols kk j)) * W (ix2 p (ChunkSum.pos hcols kk j)) :=
  (colAdd_apply a (mulf (chunk V (trip kk)) (chunk W (trip kk))) p u).trans
    (congrArg (a (ix2 p u) + ·) (Finset.sum_congr rfl fun j _ => by
      show chunk V (trip kk) (ix2 p j) * chunk W (trip kk) (ix2 p j) = _
      rw [chunk_apply V kk p j, chunk_apply W kk p j]))

theorem pay2_apply : k0_pay2 a (chunk V (trip kk)) (ix2 p u)
    = a (ix2 p u) + ∑ j : Fin 2048, V (ix2 p (ChunkSum.pos hcols kk j)) := gain_apply a V kk p u
theorem pay3_apply : k0_pay3 a (chunk V (trip kk)) (ix2 p u)
    = a (ix2 p u) + ∑ j : Fin 2048, V (ix2 p (ChunkSum.pos hcols kk j)) := gain_apply a V kk p u
theorem pay4_apply : k0_pay4 a (chunk V (trip kk)) (chunk W (trip kk)) (ix2 p u)
    = a (ix2 p u) + ∑ j : Fin 2048, V (ix2 p (ChunkSum.pos hcols kk j)) * W (ix2 p (ChunkSum.pos hcols kk j)) :=
  gainMul_apply a V W kk p u
theorem pay5_apply : k0_pay5 a (chunk V (trip kk)) (ix2 p u)
    = a (ix2 p u) + ∑ j : Fin 2048, V (ix2 p (ChunkSum.pos hcols kk j)) * V (ix2 p (ChunkSum.pos hcols kk j)) :=
  gainMul_apply a V V kk p u
theorem pay6_apply : k0_pay6 a (chunk V (trip kk)) (ix2 p u)
    = a (ix2 p u) + ∑ j : Fin 2048, V (ix2 p (ChunkSum.pos hcols kk j)) * V (ix2 p (ChunkSum.pos hcols kk j)) :=
  gainMul_apply a V V kk p u

end trip

section sums

variable (X Y : Vec Ideal S256x8192 .f32) (p : Fin 256)

/-- After the four trips, row p of the first carried column is the sum of row p of x over all 8192 columns. -/
theorem sum_x : (sums X Y).1 (ix2 p 0) = ∑ i : Fin 8192, X (ix2 p i) := by
  unfold sums step start
  dsimp only
  rw [pay2_apply _ X 3 p 0, pay2_apply _ X 2 p 0, pay2_apply _ X 1 p 0,
    pay2_apply _ X 0 p 0, start_apply]
  exact ChunkSum.sum_four_chunks hcols (fun i => X (ix2 p i))

/-- Likewise the second is the sum of row p of y. -/
theorem sum_y : (sums X Y).2.1 (ix2 p 0) = ∑ i : Fin 8192, Y (ix2 p i) := by
  unfold sums step start
  dsimp only
  rw [pay3_apply _ Y 3 p 0, pay3_apply _ Y 2 p 0, pay3_apply _ Y 1 p 0,
    pay3_apply _ Y 0 p 0, start_apply]
  exact ChunkSum.sum_four_chunks hcols (fun i => Y (ix2 p i))

/-- The third is the sum of the products x·y along row p. -/
theorem sum_xy : (sums X Y).2.2.1 (ix2 p 0) = ∑ i : Fin 8192, X (ix2 p i) * Y (ix2 p i) := by
  unfold sums step start
  dsimp only
  rw [pay4_apply _ X Y 3 p 0, pay4_apply _ X Y 2 p 0,
    pay4_apply _ X Y 1 p 0, pay4_apply _ X Y 0 p 0, start_apply]
  exact ChunkSum.sum_four_chunks hcols (fun i => X (ix2 p i) * Y (ix2 p i))

/-- The fourth is the sum of the squares of x along row p. -/
theorem sum_xx : (sums X Y).2.2.2.1 (ix2 p 0) = ∑ i : Fin 8192, X (ix2 p i) * X (ix2 p i) := by
  unfold sums step start
  dsimp only
  rw [pay5_apply _ X 3 p 0, pay5_apply _ X 2 p 0, pay5_apply _ X 1 p 0,
    pay5_apply _ X 0 p 0, start_apply]
  exact ChunkSum.sum_four_chunks hcols (fun i => X (ix2 p i) * X (ix2 p i))

/-- The fifth is the sum of the squares of y along row p. -/
theorem sum_yy : (sums X Y).2.2.2.2 (ix2 p 0) = ∑ i : Fin 8192, Y (ix2 p i) * Y (ix2 p i) := by
  unfold sums step start
  dsimp only
  rw [pay6_apply _ Y 3 p 0, pay6_apply _ Y 2 p 0, pay6_apply _ Y 1 p 0,
    pay6_apply _ Y 0 p 0, start_apply]
  exact ChunkSum.sum_four_chunks hcols (fun i => Y (ix2 p i) * Y (ix2 p i))

end sums

/-- A [a, 1] column cast to a vector of length a reads, at p, the column's entry of row p. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) := by
  refine shapeCast_apply x h (ix1 p) (ix2 p (0 : Fin 1)) ?_
  rw [Shape.rowMajor_val_one, Shape.rowMajor_val_two]
  show p.val * 1 + 0 = p.val
  omega

/-- The stored expression at entry p: the loss of the five carried columns' row p. -/
theorem pay7_apply (s0 s1 s2 s3 s4 : FVec Ideal S256x1 .f32) (p : Fin 256) :
    k0_pay7 s0 s1 s2 s3 s4 (ix1 p)
      = Pearson.loss (s0 (ix2 p 0)) (s1 (ix2 p 0)) (s2 (ix2 p 0)) (s3 (ix2 p 0)) (s4 (ix2 p 0)) := by
  unfold k0_pay7
  exact (shapeCast_a1_a_apply _ shapeCasts_S256x1_S256 p).trans rfl

/-- Entry p of the block the body stores: the loss of row p of the two input blocks. -/
theorem block_apply (X Y : Vec Ideal S256x8192 .f32) (p : Fin 256) :
    block X Y (ix1 p)
      = Pearson.loss (∑ i : Fin 8192, X (ix2 p i)) (∑ i : Fin 8192, Y (ix2 p i))
          (∑ i : Fin 8192, X (ix2 p i) * Y (ix2 p i)) (∑ i : Fin 8192, X (ix2 p i) * X (ix2 p i))
          (∑ i : Fin 8192, Y (ix2 p i) * Y (ix2 p i)) := by
  unfold block
  rw [pay7_apply, sum_x, sum_y, sum_xy, sum_xx, sum_yy]

end Cert.KernelIdeal.Row

end
-- ==== Proof.KernelRows.lean ====
/-
  From the kernel's blocks to its result.

  The grid has 16 points; point t stages rows [256 t, 256 t + 256) of both inputs, all 8192 columns, and writes
  back entries [256 t, 256 t + 256) of the array of 4096 per-row values.  Entry p of what point t writes is the
  loss of row p of its two input blocks, that is, of row 256 t + p of the arrays: so each written block is the
  restriction of one array, the 4096 losses.  The 16 blocks tile the 4096 entries (entry r lies in the block of
  point r / 256), hence after the region the whole array is the losses.  The two host operations that follow
  take its mean.
-/
import proofs.«153674_j35304631173303_2_alg».proof.Proof.KernelRow
import Idealize.ShloMosaic.Lib.StableHlo.Run

set_option maxRecDepth 16384

noncomputable section

open scoped BigOperators

namespace Cert.KernelIdeal.Rows

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The printed index maps over the grid: at point t every window's block number along the rows is t, and the
    inputs' along the columns is 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ win0_2.index t (0 : Fin 1) = t.val :=
  (by decide +kernel : ∀ t : Fin grid0.N, _)

/-- Entry y of point t's block of x is entry (256 t + y₀, y₁) of the array. -/
theorem xblock_apply (c : Dev nD) (t : Fin cfg0.N) (y : S256x8192.Idx) (r : S4096x8192.Idx)
    (h0 : (r 0).val = t.val * 256 + (y 0).val) (h1 : (r 1).val = (y 1).val) :
    iblk m c 0 t y = V m c main_arg0 r := by
  obtain ⟨e0, e1, -, -, -⟩ := idx_facts t
  show V m c main_arg0 (((cfg0.win 0).blk t).view.emb y) = V m c main_arg0 r
  refine congrArg (V m c main_arg0) (funext fun a => Fin.ext ?_)
  match a with
  | ⟨0, _⟩ => show win0_0.index t (0 : Fin 2) * 256 + 1 * (y 0).val = (r 0).val; omega
  | ⟨1, _⟩ => show win0_0.index t (1 : Fin 2) * 8192 + 1 * (y 1).val = (r 1).val; omega

/-- The same for y. -/
theorem yblock_apply (c : Dev nD) (t : Fin cfg0.N) (y : S256x8192.Idx) (r : S4096x8192.Idx)
    (h0 : (r 0).val = t.val * 256 + (y 0).val) (h1 : (r 1).val = (y 1).val) :
    iblk m c 1 t y = V m c main_arg1 r := by
  obtain ⟨-, -, e0, e1, -⟩ := idx_facts t
  show V m c main_arg1 (((cfg0.win 1).blk t).view.emb y) = V m c main_arg1 r
  refine congrArg (V m c main_arg1) (funext fun a => Fin.ext ?_)
  match a with
  | ⟨0, _⟩ => show win0_1.index t (0 : Fin 2) * 256 + 1 * (y 0).val = (r 0).val; omega
  | ⟨1, _⟩ => show win0_1.index t (1 : Fin 2) * 8192 + 1 * (y 1).val = (r 1).val; omega

/-- What point t writes back is block t of the losses of the two arrays as the region finds them. -/
theorem flushed_eq (c : Dev nD) (t : Fin cfg0.N) :
    (dats m 0 c).flushed 2 t
      = ((cfg0.win 2).blk t).view.read (Elt Ideal) (Pearson.losses (V m c main_arg0) (V m c main_arg1)) := by
  show (cfg0.win 2).cut (grid0.coords t) ((dats m 0 c).after 2 t) = _
  rw [after0_2]
  unfold outsAt0
  rw [Trips.out_eq]
  obtain ⟨-, -, -, -, e2⟩ := idx_facts t
  funext j
  obtain ⟨p, rfl⟩ : ∃ p : Fin 256, j = ix1 p := ⟨j 0, eq_ix1 j⟩
  show Trips.block (iblk m c 0 t) (iblk m c 1 t) (ix1 p)
    = Pearson.rowLoss (V m c main_arg0) (V m c main_arg1) ((((cfg0.win 2).blk t).view.emb (ix1 p)) 0)
  have hr : ((((cfg0.win 2).blk t).view.emb (ix1 p)) 0).val = t.val * 256 + p.val := by
    show win0_2.index t (0 : Fin 1) * 256 + 1 * p.val = _
    omega
  refine (Row.block_apply (iblk m c 0 t) (iblk m c 1 t) p).trans ?_
  exact Pearson.rowLoss_of_rows (V m c main_arg0) (V m c main_arg1) _
    (fun k => iblk m c 0 t (ix2 p k)) (fun k => iblk m c 1 t (ix2 p k))
    (fun k => xblock_apply m c t (ix2 p k) (ix2 _ k) hr rfl)
    (fun k => yblock_apply m c t (ix2 p k) (ix2 _ k) hr rfl)

/-- An entry of the array is in point t's block iff it lies in the block's range. -/
theorem mem_blk (t : Fin cfg0.N) (i : S4096.Idx) :
    i ∈ ((cfg0.win 2).blk t).view.set
      ↔ ∀ a : Fin 1, win0_2.index t a * S256.size a ≤ (i a).val ∧ (i a).val < win0_2.index t a * S256.size a + S256.size a := by
  show i ∈ ((View.whole main_v0).slice (win0_2.rect t)).set ↔ _
  rw [View.set_slice_whole, Rect.mem_set_unit]
  exact Iff.rfl

/-- The 16 blocks cover the 4096 entries: entry r is in the block of point r / 256. -/
theorem cover (i : S4096.Idx) : ∃ t : Fin cfg0.N, (cfg0.win 2).flush t = true ∧ i ∈ ((cfg0.win 2).blk t).view.set := by
  have hi : (i 0).val < 4096 := (i 0).isLt
  have hN : cfg0.N = 16 := rfl
  let t : Fin cfg0.N := ⟨(i 0).val / 256, by rw [hN]; omega⟩
  obtain ⟨-, -, -, -, e2⟩ := idx_facts t
  have ht : t.val = (i 0).val / 256 := rfl
  refine ⟨t, flush0_2 t, ?_⟩
  rw [mem_blk]
  intro a
  match a with
  | ⟨0, _⟩ =>
    show win0_2.index t (0 : Fin 1) * 256 ≤ (i 0).val ∧ (i 0).val < win0_2.index t (0 : Fin 1) * 256 + 256
    omega

/-- After the region the array of per-row values is the losses of the two argument arrays. -/
theorem rows_final (c : Dev nD) :
    (dats m 0 c).arrAt 2 cfg0.N = Pearson.losses (V m c main_arg0) (V m c main_arg1) :=
  (dats m 0 c).arrAt_eq_of_cover 2 _ (fun t _ => flushed_eq m c t) cover

/-- The result buffer after the two host operations that follow the region: the mean of the losses. -/
theorem result_eq (c : Dev nD) :
    Pipeline.afterTail₀ cfgs (dats m) 0 (V0 m) [hostOps1] c main_v2
      = Pearson.mean (Pearson.losses (m ((c : Thread nD τ).loc main_arg0)) (m ((c : Thread nD τ).loc main_arg1))) := by
  unfold Pipeline.afterTail₀
  show StableHlo.after hostOps1 _ (Proc.devRef .tc main_v2) = _
  after_results
  rw [Pipeline.withArrays_arr spec0 launch0.win.arr_inj c _ _ 2, rows_final]
  rfl

/-- The kernel's run, read: the result is the mean of the losses of the argument arrays, which end unchanged. -/
theorem run : θ_run defs (onTc (τ := τ) (main (F := Ideal))) ⟨m, fun _ => 0, ρ⟩ fun r => ∀ c : Dev nD,
      r.2.mem ((c : Thread nD τ).loc main_v2)
        = Pearson.mean (Pearson.losses (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (by decide)).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Rows

end
-- ==== Proof.RefRows.lean ====
/-
  The reference's per-row values are the losses.

  The reference sums each row of x, y, x·y, x·x and y·y over the 8192 columns, starting from zero, and combines
  the five sums by the same expression, with the same constants and the same operand order, as the
  specification.  Entry j of its array of 4096 values is therefore the loss of row j; the only rewriting is
  0 + s = s for the sums' initial value.
-/
import proofs.«153674_j35304631173303_2_alg».proof.Proof.Gen.ReferenceIdeal.Read
import proofs.«153674_j35304631173303_2_alg».proof.Proof.PearsonSpec
import Idealize.ShloMosaic.PureOps.Ideal.Laws

noncomputable section

open scoped BigOperators

namespace Cert.ReferenceIdeal.Rows

open Idealize.ShloMosaic Idealize.ShloMosaic.ValueIdx
open Cert.ReferenceIdeal Cert.ReferenceIdeal.Gen Cert.ReferenceIdeal.Read

/-- The index a row sum reads at column k of row j. -/
theorem idx_row (j : S4096.Idx) (k : Fin 8192) : idx_main_v0 j k = ix2 (j 0) k :=
  funext fun a => Fin.ext (by match a with | ⟨0, _⟩ => rfl | ⟨1, _⟩ => rfl)

theorem losses_eq (x0 x1 : (⟨S4096x8192, .f32⟩ : BufTy).Contents (Elt Ideal)) :
    val_main_v24 (F := Ideal) x0 x1 = Pearson.losses x0 x1 := by
  funext j
  have e0 : ∀ k, idx_main_v0 j k = ix2 (j 0) k := idx_row j
  have e1 : ∀ k, idx_main_v1 j k = ix2 (j 0) k := idx_row j
  have e3 : ∀ k, idx_main_v3 j k = ix2 (j 0) k := idx_row j
  have e5 : ∀ k, idx_main_v5 j k = ix2 (j 0) k := idx_row j
  have e7 : ∀ k, idx_main_v7 j k = ix2 (j 0) k := idx_row j
  simp only [val_main_v24_apply, val_main_v23_apply, val_main_cst_7_apply, val_main_v22_apply, val_main_v21_apply,
    val_main_v20_apply, val_main_v19_apply, val_main_v18_apply, val_main_v17_apply, val_main_v16_apply,
    val_main_cst_6_apply, val_main_v15_apply, val_main_v14_apply, val_main_v13_apply, val_main_v12_apply,
    val_main_cst_5_apply, val_main_v11_apply, val_main_v10_apply, val_main_v9_apply, val_main_v8_apply,
    val_main_cst_4_apply, val_main_v7_apply, val_main_cst_3_apply, val_main_v6_apply, val_main_v5_apply,
    val_main_cst_2_apply, val_main_v4_apply, val_main_v3_apply, val_main_cst_1_apply, val_main_v2_apply,
    val_main_v1_apply, val_main_cst_0_apply, val_main_v0_apply, val_main_cst_apply,
    e0, e1, e3, e5, e7,
    Ideal.ofBits_def, Ideal.subf_def, Ideal.mulf_def, Ideal.hostDivf_def, Ideal.hostUnary_sqrt_def,
    Ideal.ofBits_zero_f32, zero_add]
  rfl

end Cert.ReferenceIdeal.Rows

end
-- ==== Proof.lean ====
/-
  The kernel and its reference compute the same extended real: the mean over 4096 rows of
      1 − (n·Σxy − Σx·Σy) / sqrt ((n·Σx² − (Σx)²) · (n·Σy² − (Σy)²)),        n = 8192,
  the sums running over the 8192 columns of a row of the two inputs.

  The reference takes each of the five row sums in one pass.  The kernel works on 16 blocks of 256 rows; inside a
  block it walks the columns in four chunks of 2048 and carries the five sums from chunk to chunk, starting at
  zero, then forms the same expression — same constants, same operand order, the ideal instance's one square
  root and one quotient on both sides — and writes the block's 256 values; the mean is taken by the same two host
  operations in both programs.  So the two agree as soon as
      (((0 + S₀) + S₁) + S₂) + S₃ = Σ over all 8192 columns,
  S_k the sum over chunk k: the chunks partition the columns, and regrouping a finite sum needs only that + is
  associative and commutative, which holds on all of the extended reals.  No finiteness of the inputs is used.

  Where each step lives: the regrouping law (LibChunkSum), the function (PearsonSpec), the body as four trips
  (KernelTrips), one row of a block (KernelRow), the blocks as one array and the mean of it (KernelRows), the
  reference's rows (RefRows).  The three frames are the generated ones (the reference's is its generated run with
  the result dropped); the idealization rewrote nothing, so there is nothing to preserve.
-/
import proofs.«153674_j35304631173303_2_alg».proof.Defs
import proofs.«153674_j35304631173303_2_alg».proof.Proof.Gen.Kernel
import proofs.«153674_j35304631173303_2_alg».proof.Proof.Gen.Kernel.Skeleton
import proofs.«153674_j35304631173303_2_alg».proof.Proof.Gen.Kernel.Loops
import proofs.«153674_j35304631173303_2_alg».proof.Proof.Gen.Kernel.Launch
import proofs.«153674_j35304631173303_2_alg».proof.Proof.Gen.Kernel.Points
import proofs.«153674_j35304631173303_2_alg».proof.Proof.Gen.Kernel.Frame
import proofs.«153674_j35304631173303_2_alg».proof.Proof.Gen.KernelIdeal
import proofs.«153674_j35304631173303_2_alg».proof.Proof.Gen.KernelIdeal.Skeleton
import proofs.«153674_j35304631173303_2_alg».proof.Proof.Gen.KernelIdeal.Loops
import proofs.«153674_j35304631173303_2_alg».proof.Proof.Gen.KernelIdeal.Launch
import proofs.«153674_j35304631173303_2_alg».proof.Proof.Gen.KernelIdeal.Points
import proofs.«153674_j35304631173303_2_alg».proof.Proof.Gen.KernelIdeal.Frame
import proofs.«153674_j35304631173303_2_alg».proof.Proof.Gen.ReferenceIdeal
import proofs.«153674_j35304631173303_2_alg».proof.Proof.Gen.Pre_finite_inputs
import proofs.«153674_j35304631173303_2_alg».proof.Proof.Gen.ReferenceIdeal.Run
import proofs.«153674_j35304631173303_2_alg».proof.Proof.Gen.ReferenceIdeal.Read
import proofs.«153674_j35304631173303_2_alg».proof.Proof.KernelRows
import proofs.«153674_j35304631173303_2_alg».proof.Proof.RefRows
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result is the mean of its per-row values. -/
theorem reference_result (x0 x1 : (⟨Cert.ReferenceIdeal.S4096x8192, .f32⟩ : BufTy).Contents (Elt Ideal)) :
    Cert.ReferenceIdeal.Read.val_main_v26 (F := Ideal) x0 x1
      = Pearson.mean (Cert.ReferenceIdeal.Read.val_main_v24 (F := Ideal) x0 x1) := rfl

/-- From memories that agree on the two inputs, both idealized programs end with the mean of the rows' losses. -/
theorem algebraic : Cert.algebraic_KernelIdeal_ReferenceIdeal := by
  intro m ρ m' ρ' _ hagree
  refine ⟨_, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2, reference_result,
    Cert.ReferenceIdeal.Rows.losses_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
